-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S8x2048x64 : Shape := ⟨3, ![8, 2048, 64]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x2048x64 : S_.BroadcastsInDim S8x2048x64 (![] : Fin 0 → Fin S8x2048x64.rank)
  reducesTo_S8x2048x64_S_d0_1_2 : S8x2048x64.ReducesTo [0, 1, 2] S_

variable [Facts]

def fn {F : FTy → Type} [FloatOps F] (main_arg0 : FVec F S8x4096x2048 .f32) (main_arg1 : FVec F S8x2048x64 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  main_v8
-- ==== Kernel.lean ====
abbrev S8x4096x2048 : Shape := ⟨3, ![8, 4096, 2048]⟩
abbrev S8x2048x64 : Shape := ⟨3, ![8, 2048, 64]⟩
abbrev S8x4096x64 : Shape := ⟨3, ![8, 4096, 64]⟩
abbrev S1x1024x2048 : Shape := ⟨3, ![1, 1024, 2048]⟩
abbrev S1x2048x64 : Shape := ⟨3, ![1, 2048, 64]⟩
abbrev S1x1024x64 : Shape := ⟨3, ![1, 1024, 64]⟩
abbrev S2048x64 : Shape := ⟨2, ![2048, 64]⟩
abbrev S1024x2048 : Shape := ⟨2, ![1024, 2048]⟩
abbrev S1024x64 : Shape := ⟨2, ![1024, 64]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x2048, .f32⟩
  | .hbm, ⟨1, _⟩ => ⟨S8x2048x64, .f32⟩
  | .hbm, ⟨2, _⟩ => ⟨S8x4096x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x64, .f32⟩
  | .local _ .vmem, ⟨3, _⟩ => ⟨S1x2048x64, .f32⟩
  | .local _ .vmem, ⟨4, _⟩ => ⟨S1x1024x64, .f32⟩
  | .local _ .vmem, ⟨5, _⟩ => ⟨S1x1024x64, .f32⟩
  | .local _ .vmem, ⟨6, _⟩ => ⟨S2048x64, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x4096x2048.size a
  hwx0_0 : ∀ i : grid0.Coords, EltTy.bits .f32 = 32 ∨ (Rect.block (s := S8x4096x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .f32 = 32 ∨ (Rect.block (s := S8x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S8x4096x64.size a
  hwx0_2 : ∀ i : grid0.Coords, EltTy.bits .f32 = 32 ∨ (Rect.block (s := S8x4096x64) S1x1024x64.size (cc0_transform_2 i) (hinb0_2 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S8x2048x64 : Shape := ⟨3, ![8, 2048, 64]⟩
abbrev S8x4096x64 : Shape := ⟨3, ![8, 4096, 64]⟩

abbrev nBuf : Space → Nat
  | .hbm => 3
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x2048x64, .f32⟩
  | .hbm, ⟨2, _⟩ => ⟨S8x4096x64, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x4096x2048_S8x2048x64_S8x4096x64_2_1_1_2_0_0_wf : DotDims.WF S8x4096x2048 S8x2048x64 S8x4096x64 [2] [1] [1] [2] [0] [0]

variable [Facts₀]

def dot_S8x4096x2048_S8x2048x64_S8x4096x64_2_1_1_2_0_0 : DotDims S8x4096x2048 S8x2048x64 S8x4096x64 where
  lhsContracting := [2]
  rhsContracting := [1]
  lhsNonContracting := [1]
  rhsNonContracting := [2]
  lhsBatch := [0]
  rhsBatch := [0]
  wf := dot_S8x4096x2048_S8x2048x64_S8x4096x64_2_1_1_2_0_0_wf

class Facts : Prop extends Facts₀ where

variable [Facts]
-- ==== Proof.Pieces.lean ====
/-
  What one run of the body leaves in the carried slab and in the output block, as values of what it loaded.

  The body has two cases.  At the first row tile of a batch it overwrites the whole slab with the narrowed weight
  block, then reads the slab back and stores the product of the `x` block with it; so the slab ends at the stored
  value of the weight block, and the output block at the product with THAT value.  At every other row tile it leaves
  the slab as it found it and stores the product of the `x` block with what the slab held.  Each store covers its
  whole buffer through the zero offset, so what the buffer holds afterwards is the stored value itself.
-/
import proofs.«162398_j52132313039179_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- First row tile of a batch: the slab ends at the value stored from the weight block `x1`. -/
theorem slab_first (c : Dev nD) (i : grid0.Coords) (a2 : Memref sig .tc .vmem S1x1024x2048 .f32) (h2 : a2.IsWhole)
    (a3 : Memref sig .tc .vmem S1x2048x64 .f32) (h3 : a3.IsWhole) (a4 : Memref sig .tc .vmem S1x1024x64 .f32) (h4 : a4.IsWhole)
    (a5 : Memref sig .tc .vmem S2048x64 .bf16) (h5 : a5.IsWhole) (hc : cond0_0 i)
    (x0 : Vec F S1x1024x2048 .f32) (x1 : Vec F S1x2048x64 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero off2]
  simp only [View.readAt_eq_ld, h3.read_unread, View.ld_unit_zero (S := S1x2048x64) off3]

/-- First row tile of a batch: the output block ends at the product of the `x` block `x0` with the slab just
    stored from `x1` (the body reads the slab back after storing it). -/
theorem out_first (c : Dev nD) (i : grid0.Coords) (a2 : Memref sig .tc .vmem S1x1024x2048 .f32) (h2 : a2.IsWhole)
    (a3 : Memref sig .tc .vmem S1x2048x64 .f32) (h3 : a3.IsWhole) (a4 : Memref sig .tc .vmem S1x1024x64 .f32) (h4 : a4.IsWhole)
    (a5 : Memref sig .tc .vmem S2048x64 .bf16) (h5 : a5.IsWhole) (hc : cond0_0 i)
    (x0 : Vec F S1x1024x2048 .f32) (x1 : Vec F S1x2048x64 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero off3, View.readCov_unit_zero (S := S2048x64) _ off2]
  simp only [View.readAt_eq_ld, h2.read_unread, h3.read_unread, View.ld_unit_zero (S := S1x1024x2048) off3,
    View.ld_unit_zero (S := S1x2048x64) off3]

/-- A later row tile: the output block ends at the product of the `x` block `x0` with what the slab held, `xs`. -/
theorem out_later (c : Dev nD) (i : grid0.Coords) (a2 : Memref sig .tc .vmem S1x1024x2048 .f32) (h2 : a2.IsWhole)
    (a3 : Memref sig .tc .vmem S1x2048x64 .f32) (h3 : a3.IsWhole) (a4 : Memref sig .tc .vmem S1x1024x64 .f32) (h4 : a4.IsWhole)
    (a5 : Memref sig .tc .vmem S2048x64 .bf16) (h5 : a5.IsWhole) (hc : ¬cond0_0 i)
    (x0 : Vec F S1x1024x2048 .f32) (x1 : Vec F S1x2048x64 .f32) (xs : Vec F S2048x64 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  rw [View.canon_unit_zero off3]
  simp only [View.readAt_eq_ld, h2.read_unread, h5.read_unread, View.ld_unit_zero (S := S1x1024x2048) off3,
    View.ld_unit_zero (S := S2048x64) off2]

/-- A later row tile: the slab is left as it was found. -/
theorem slab_later (c : Dev nD) (i : grid0.Coords) (a2 : Memref sig .tc .vmem S1x1024x2048 .f32) (h2 : a2.IsWhole)
    (a3 : Memref sig .tc .vmem S1x2048x64 .f32) (h3 : a3.IsWhole) (a4 : Memref sig .tc .vmem S1x1024x64 .f32) (h4 : a4.IsWhole)
    (a5 : Memref sig .tc .vmem S2048x64 .bf16) (h5 : a5.IsWhole) (hc : ¬cond0_0 i)
    (x0 : Vec F S1x1024x2048 .f32) (x1 : Vec F S1x2048x64 .f32) (xs : Vec F S2048x64 .bf16) :
    sout0_B_0 c i a2 h2 a3 h3 a4 h4 a5 h5 hc x0 x1 xs = xs := rfl

end Cert.KernelIdeal.Pieces

end
-- ==== Proof.Payload.lean ====
/-
  The body's two stored values, read entry by entry over the extended reals.

  The body stores two things.  Into the carried slab (only at the first row tile of a batch) it stores the loaded
  weight block with its leading unit axis dropped and its format narrowed; over the extended reals a change of
  format is the identity, so entry (d, r) of the slab is entry (0, d, r) of the block.  Into the output block it
  stores the matrix product of the loaded `x` block (unit axis dropped, format narrowed) with the slab, accumulated
  into zero, with a unit axis put back; so entry (u, p, r) of the stored value is the sum over d of
  block (0, p, d) * slab (d, r).
-/
import proofs.«162398_j52132313039179_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The dimension numbers of the body's product: rows of the left operand against columns of the right,
    contracting the left operand's axis 1 with the right operand's axis 0. -/
abbrev mm : DotDims S1024x2048 S2048x64 S1024x64 := dot_S1024x2048_S2048x64_S1024x64_1_0_0_1_n_n

/-- Entry (d, r) of the value stored into the slab is entry (0, d, r) of the loaded weight block. -/
theorem slab_apply (v : Vec Ideal S1x2048x64 .f32) (d : Fin 2048) (r : Fin 64) :
    k0_pay1 (F := Ideal) v (ix2 d r) = v (ix3 (0 : Fin 1) d r) := by
  unfold k0_pay1
  rw [shapeCast_self]
  exact shapeCast_1ab_ab_apply v _ d r

/-- The left operand's row coordinate is the output's row coordinate. -/
theorem mm_lhs_row (j : S1024x64.Idx) (q : mm.contr.Idx) : (mm.lhsIdx j q 0).val = (j 0).val := by
  unfold DotDims.lhsIdx
  rw [dif_neg (show ¬(0 : Fin S1024x2048.rank) ∈ mm.lhsBatch by decide),
    dif_pos (show (0 : Fin S1024x2048.rank) ∈ mm.lhsNonContracting by decide)]
  rfl

/-- The right operand's column coordinate is the output's column coordinate. -/
theorem mm_rhs_col (j : S1024x64.Idx) (q : mm.contr.Idx) : (mm.rhsIdx j q 1).val = (j 1).val := by
  unfold DotDims.rhsIdx
  rw [dif_neg (show ¬(1 : Fin S2048x64.rank) ∈ mm.rhsBatch by decide),
    dif_pos (show (1 : Fin S2048x64.rank) ∈ mm.rhsNonContracting by decide)]
  rfl

/-- The left operand's index at output (p, r) and contraction position d is (p, d). -/
theorem mm_lhs (p : Fin 1024) (r : Fin 64) (d : Fin 2048) :
    mm.lhsIdx (ix2 p r) ((contrEquiv1 mm 2048 rfl rfl).symm d) = (ix2 p d : S1024x2048.Idx) :=
  funext fun a => Fin.ext (by
    match a with
    | ⟨0, _⟩ => exact mm_lhs_row _ _
    | ⟨1, _⟩ => exact (mm.lhsIdx_val_of_single rfl _ _).trans (contrEquiv1_symm_val mm 2048 rfl rfl d))

/-- The right operand's index at output (p, r) and contraction position d is (d, r). -/
theorem mm_rhs (p : Fin 1024) (r : Fin 64) (d : Fin 2048) :
    mm.rhsIdx (ix2 p r) ((contrEquiv1 mm 2048 rfl rfl).symm d) = (ix2 d r : S2048x64.Idx) :=
  funext fun a => Fin.ext (by
    match a with
    | ⟨0, _⟩ => exact (mm.rhsIdx_val_of_single rfl _ _).trans (contrEquiv1_symm_val mm 2048 rfl rfl d)
    | ⟨1, _⟩ => exact mm_rhs_col _ _)

/-- Entry (u, p, r) of the value stored into the output block is the sum over d of
    `x`-block (0, p, d) times slab (d, r). -/
theorem out_apply (v : Vec Ideal S1x1024x2048 .f32) (s : Vec Ideal S2048x64 .bf16) (u : Fin 1) (p : Fin 1024)
    (r : Fin 64) :
    k0_pay2 (F := Ideal) v s (ix3 u p r) = ∑ d : Fin 2048, v (ix3 (0 : Fin 1) p d) * s (ix2 d r) := by
  unfold k0_pay2
  refine (shapeCast_ab_1ab_apply _ _ u p r).trans ?_
  refine (Ideal.matmul_constant_zero_apply (φ₁ := .bf16) (φ₂ := .bf16) mm none _ s (ix2 p r)).trans ?_
  rw [← Equiv.sum_comp (contrEquiv1 mm 2048 rfl rfl).symm]
  refine Finset.sum_congr rfl fun d _ => ?_
  rw [mm_lhs, mm_rhs]
  exact congrArg (· * s (ix2 d r)) (shapeCast_1ab_ab_apply v _ p d)

end Cert.KernelIdeal.Payload

end
-- ==== Proof.Points.lean ====
/-
  What the carried slab and the output block hold after each grid point, in terms of the two argument arrays.

  The grid has 32 points; point n works on batch n / 4 and row tile n % 4 (1024 rows each).  The `x` window's block
  at point n is rows (n % 4) * 1024 … of batch n / 4 of `x`; the weight window's block is all of batch n / 4 of `w`.
  The slab is rewritten from the weight block exactly when n % 4 = 0 and kept otherwise, and n / 4 does not change
  between two rewrites; so, by induction on n, after point n the slab's entry (d, r) is w (n / 4, d, r).
  Consequently entry (u, p, r) of the output block after point n is the sum over d of
  x (n / 4, (n % 4) * 1024 + p, d) * w (n / 4, d, r).
-/
import proofs.«162398_j52132313039179_2_alg».proof.Proof.Gen.KernelIdeal.Frame
import proofs.«162398_j52132313039179_2_alg».proof.Proof.Pieces
import proofs.«162398_j52132313039179_2_alg».proof.Proof.Payload

noncomputable section

open Idealize.ShloMosaic Idealize.ShloMosaic.TcCoe Idealize.SL.Sem Idealize.ShloMosaic.ValueIdx

namespace Cert.KernelIdeal.Points

open Cert.KernelIdeal Cert.KernelIdeal.Gen

variable (m : (ℓ : Loc nD τ sig) → Buf (Elt Ideal) ℓ)

/-- The three windows' block indices at a point, decided once over the grid: the `x` window and the output window
    sit at (batch, row tile, 0), the weight window at (batch, 0, 0). -/
theorem index_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0 :=
  (by decide +kernel : ∀ t : Fin grid0.N, _)

theorem N_eq : cfg0.N = 32 := N_0

/-- The two argument arrays as the region finds them (the program has no operation before the region, so these are
    the arrays as launched), as functions from indices to extended reals. -/
abbrev argX (c : Dev nD) : S8x4096x2048.Idx → EReal := V m c main_arg0
abbrev argW (c : Dev nD) : S8x2048x64.Idx → EReal := V m c main_arg1

/-- The batch point `n` works on. -/
def batch (n : ℕ) (hn : n < cfg0.N) : Fin 8 := ⟨n / 4, by have := lt_of_lt_of_eq hn N_eq; omega⟩

/-- The row of `x` (and of the result) that row `p` of point `n`'s tile is. -/
def row (n : ℕ) (p : Fin 1024) : Fin 4096 := ⟨(n % 4) * 1024 + p.val, by have := p.isLt; omega⟩

theorem batch_val (n : ℕ) (hn : n < cfg0.N) : (batch n hn).val = n / 4 := rfl
theorem row_val (n : ℕ) (p : Fin 1024) : (row n p).val = (n % 4) * 1024 + p.val := rfl

/-- Entry (0, d, r) of the weight window's block at point `t` is w (t / 4, d, r). -/
theorem wblock_apply (c : Dev nD) (t : Fin cfg0.N) (d : Fin 2048) (r : Fin 64) :
    iblk m c 1 t (ix3 (0 : Fin 1) d r) = argW m c (ix3 (batch t.val t.isLt) d r) := by
  obtain ⟨-, -, -, e0, e1, e2, -, -, -⟩ := index_facts t
  unfold iblk
  rw [View.read_apply]
  show V m c main_arg1 (((cfg0.win 1).blk t).view.emb (ix3 (0 : Fin 1) d r)) = _
  refine congrArg (V m c main_arg1) ?_
  funext a
  apply Fin.ext
  match a with
  | ⟨0, _⟩ => show win0_1.index t (0 : Fin 3) * 1 + 1 * 0 = t.val / 4; omega
  | ⟨1, _⟩ => show win0_1.index t (1 : Fin 3) * 2048 + 1 * d.val = d.val; omega
  | ⟨2, _⟩ => show win0_1.index t (2 : Fin 3) * 64 + 1 * r.val = r.val; omega

/-- Entry (0, p, d) of the `x` window's block at point `t` is x (t / 4, (t % 4) * 1024 + p, d). -/
theorem xblock_apply (c : Dev nD) (t : Fin cfg0.N) (p : Fin 1024) (d : Fin 2048) :
    iblk m c 0 t (ix3 (0 : Fin 1) p d) = argX m c (ix3 (batch t.val t.isLt) (row t.val p) d) := by
  obtain ⟨e0, e1, e2, -, -, -, -, -, -⟩ := index_facts t
  unfold iblk
  rw [View.read_apply]
  show V m c main_arg0 (((cfg0.win 0).blk t).view.emb (ix3 (0 : Fin 1) p d)) = _
  refine congrArg (V m c main_arg0) ?_
  funext a
  apply Fin.ext
  match a with
  | ⟨0, _⟩ => show win0_0.index t (0 : Fin 3) * 1 + 1 * 0 = t.val / 4; omega
  | ⟨1, _⟩ => show win0_0.index t (1 : Fin 3) * 1024 + 1 * p.val = (t.val % 4) * 1024 + p.val; omega
  | ⟨2, _⟩ => show win0_0.index t (2 : Fin 3) * 2048 + 1 * d.val = d.val; omega

/-- THE CARRIED SLAB after point `n`: entry (d, r) is w (n / 4, d, r).  At a point with n % 4 = 0 the slab was just
    stored from the weight block of batch n / 4; otherwise it is what point n - 1 left, and (n - 1) / 4 = n / 4. -/
theorem slab_after (c : Dev nD) (n : ℕ) : ∀ (hn : n < cfg0.N) (d : Fin 2048) (r : Fin 64),
    (outsAt0 m c n hn).2 (ix2 d r) = argW m c (ix3 (batch n hn) d r) := by
  induction n with
  | zero =>
    intro hn d r
    rw [outsAt0_A m c ⟨0, hn⟩ rfl]
    dsimp only
    rw [Pieces.slab_first]
    exact (Payload.slab_apply _ d r).trans (wblock_apply m c ⟨0, hn⟩ d r)
  | succ n ih =>
    intro hn d r
    by_cases h0 : (n + 1) % 4 = 0
    · rw [outsAt0_A m c ⟨n + 1, hn⟩ h0]
      dsimp only
      rw [Pieces.slab_first]
      exact (Payload.slab_apply _ d r).trans (wblock_apply m c ⟨n + 1, hn⟩ d r)
    · have e : (outsAt0 m c (n + 1) hn).2 = (outsAt0 m c n (Nat.lt_of_succ_lt hn)).2 := by
        rw [outsAt0_B m c ⟨n + 1, hn⟩ h0]
        dsimp only
        rw [Pieces.slab_later]
        simp only [Nat.add_sub_cancel]
      rw [e, ih (Nat.lt_of_succ_lt hn) d r]
      refine congrArg (fun b => argW m c (ix3 b d r)) (Fin.ext ?_)
      show n / 4 = (n + 1) / 4
      omega

/-- THE OUTPUT BLOCK after point `t`: entry (u, p, r) is the sum over d of
    x (t / 4, (t % 4) * 1024 + p, d) * w (t / 4, d, r). -/
theorem out_after (c : Dev nD) (t : Fin cfg0.N) (u : Fin 1) (p : Fin 1024) (r : Fin 64) :
    (outsAt0 m c t.val t.isLt).1 (ix3 u p r)
      = ∑ d : Fin 2048, argX m c (ix3 (batch t.val t.isLt) (row t.val p) d)
          * argW m c (ix3 (batch t.val t.isLt) d r) := by
  by_cases h0 : t.val % 4 = 0
  · rw [outsAt0_A m c t h0]
    dsimp only
    rw [Pieces.out_first]
    refine (Payload.out_apply _ _ u p r).trans (Finset.sum_congr rfl fun d _ => ?_)
    rw [xblock_apply m c t p d]
    exact congrArg (argX m c (ix3 (batch t.val t.isLt) (row t.val p) d) * ·)
      ((Payload.slab_apply _ d r).trans (wblock_apply m c t d r))
  · rw [outsAt0_B m c t h0]
    dsimp only
    rw [Pieces.out_later]
    refine (Payload.out_apply _ _ u p r).trans (Finset.sum_congr rfl fun d _ => ?_)
    rw [xblock_apply m c t p d, slab_after m c (t.val - 1) _ d r]
    refine congrArg (fun b => argX m c (ix3 (batch t.val t.isLt) (row t.val p) d)
      * argW m c (ix3 b d r)) (Fin.ext ?_)
    show (t.val - 1) / 4 = t.val / 4
    omega

end Cert.KernelIdeal.Points

end
-- ==== Proof.Spec.lean ====
/-
  The batched product both programs compute, as one function of the two argument arrays.

  For x of shape [8, 4096, 2048] and w of shape [8, 2048, 64] over the extended reals, entry (b, s, r) of the
  result, of shape [8, 4096, 64], is the sum over d < 2048 of x (b, s, d) * w (b, d, r).  Batch b of the result
  is the matrix product of batch b of x with batch b of w; nothing mixes two batches.
-/
import Idealize.ShloMosaic.PureOps.Ideal
import Idealize.ShloMosaic.Lib.ValueIdx

noncomputable section

namespace Cert.BatchedProduct

open Idealize.ShloMosaic Idealize.ShloMosaic.ValueIdx

/-- The shapes of the two arguments and of the result. -/
abbrev SX : Shape := ⟨3, ![8, 4096, 2048]⟩
abbrev SW : Shape := ⟨3, ![8, 2048, 64]⟩
abbrev SO : Shape := ⟨3, ![8, 4096, 64]⟩

/-- Entry (b, s, r) of the batched product: row s of batch b of `x` against column r of batch b of `w`. -/
def entry (x : SX.Idx → EReal) (w : SW.Idx → EReal) (b : Fin 8) (s : Fin 4096) (r : Fin 64) : EReal :=
  ∑ d : Fin 2048, x (ix3 b s d) * w (ix3 b d r)

/-- The batched product as an array: its value at an index is `entry` at the index's three coordinates. -/
def prod (x : SX.Idx → EReal) (w : SW.Idx → EReal) : SO.Idx → EReal :=
  fun i => entry x w (i 0) (i 1) (i 2)

theorem prod_ix3 (x : SX.Idx → EReal) (w : SW.Idx → EReal) (b : Fin 8) (s : Fin 4096) (r : Fin 64) :
    prod x w (ix3 b s r) = entry x w b s r := rfl

end Cert.BatchedProduct

end
-- ==== Proof.Result.lean ====
/-
  The kernel's result array is the batched product of its two arguments.

  Point t writes its output block back to rows (t % 4) * 1024 … of batch t / 4 of the result, and what it writes is,
  entry by entry, the batched product at that place; the 32 blocks tile the result (index (b, s, r) lies in the block
  of point 4 * b + s / 1024).  So after the run the result array is the batched product of the argument arrays.
-/
import proofs.«162398_j52132313039179_2_alg».proof.Proof.Gen.KernelIdeal.Value
import proofs.«162398_j52132313039179_2_alg».proof.Proof.Points
import proofs.«162398_j52132313039179_2_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Points Cert.BatchedProduct

variable (m : (ℓ : Loc nD τ sig) → Buf (Elt Ideal) ℓ) (ρ : Dev nD → PrngReg)

/-- WHAT POINT `t` WRITES BACK is block `t` of the batched product of the argument arrays. -/
theorem flushed_eq (c : Dev nD) (t : Fin cfg0.N) :
    (dats m 0 c).flushed 2 t
      = ((cfg0.win 2).blk t).view.read (Elt Ideal) (prod (argX m c) (argW m c)) := by
  rw [Value.flushed2]
  obtain ⟨-, -, -, -, -, -, e0, e1, e2⟩ := index_facts t
  funext j
  obtain ⟨u, p, r, rfl⟩ : ∃ (u : Fin 1) (p : Fin 1024) (r : Fin 64), j = ix3 u p r := ⟨j 0, j 1, j 2, eq_ix3 j⟩
  have hu : u.val = 0 := by omega
  have he : ((cfg0.win 2).blk t).view.emb (ix3 u p r) = (ix3 (batch t.val t.isLt) (row t.val p) r : S8x4096x64.Idx) := by
    funext a
    apply Fin.ext
    match a with
    | ⟨0, _⟩ => show win0_2.index t (0 : Fin 3) * 1 + 1 * u.val = t.val / 4; omega
    | ⟨1, _⟩ => show win0_2.index t (1 : Fin 3) * 1024 + 1 * p.val = (t.val % 4) * 1024 + p.val; omega
    | ⟨2, _⟩ => show win0_2.index t (2 : Fin 3) * 64 + 1 * r.val = r.val; omega
  show (outsAt0 m c t.val t.isLt).1 (ix3 u p r)
    = prod (argX m c) (argW m c) (((cfg0.win 2).blk t).view.emb (ix3 u p r))
  rw [he, prod_ix3, out_after m c t u p r]
  rfl

/-- An index of the result is in point `t`'s block iff each coordinate is in the block's range on its axis. -/
theorem mem_blk (t : Fin cfg0.N) (i : S8x4096x64.Idx) :
    i ∈ ((cfg0.win 2).blk t).view.set ↔ ∀ a : Fin 3, win0_2.index t a * S1x1024x64.size a ≤ (i a).val
      ∧ (i a).val < win0_2.index t a * S1x1024x64.size a + S1x1024x64.size a := by
  show i ∈ ((View.whole main_v0).slice (win0_2.rect t)).set ↔ _
  rw [View.set_slice_whole, Rect.mem_set_unit]
  exact Iff.rfl

/-- Every index (b, s, r) of the result lies in the block of point 4 * b + s / 1024. -/
theorem cover (i : S8x4096x64.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 64 := (i 2).isLt
  have hlt : 4 * (i 0).val + (i 1).val / 1024 < cfg0.N := by rw [N_eq]; omega
  obtain ⟨-, -, -, -, -, -, e0, e1, e2⟩ := index_facts ⟨4 * (i 0).val + (i 1).val / 1024, hlt⟩
  have e0' : win0_2.index ⟨4 * (i 0).val + (i 1).val / 1024, hlt⟩ (0 : Fin 3) = (4 * (i 0).val + (i 1).val / 1024) / 4 := e0
  have e1' : win0_2.index ⟨4 * (i 0).val + (i 1).val / 1024, hlt⟩ (1 : Fin 3) = (4 * (i 0).val + (i 1).val / 1024) % 4 := e1
  refine ⟨⟨4 * (i 0).val + (i 1).val / 1024, hlt⟩, flush0_2 _, ?_⟩
  rw [mem_blk]
  intro a
  match a with
  | ⟨0, _⟩ =>
    show win0_2.index _ (0 : Fin 3) * 1 ≤ (i 0).val ∧ (i 0).val < win0_2.index _ (0 : Fin 3) * 1 + 1
    omega
  | ⟨1, _⟩ =>
    show win0_2.index _ (1 : Fin 3) * 1024 ≤ (i 1).val ∧ (i 1).val < win0_2.index _ (1 : Fin 3) * 1024 + 1024
    omega
  | ⟨2, _⟩ =>
    show win0_2.index _ (2 : Fin 3) * 64 ≤ (i 2).val ∧ (i 2).val < win0_2.index _ (2 : Fin 3) * 64 + 64
    omega

/-- THE RESULT ARRAY after the run is the batched product of the argument arrays as launched. -/
theorem final (c : Dev nD) :
    (dats m 0 c).arrAt 2 cfg0.N
      = prod (argX m c) (argW m c) :=
  (dats m 0 c).arrAt_eq_of_cover 2 (prod (argX m c) (argW m c)) (fun t _ => flushed_eq m c t) cover

/-- The run, read: the result array at the batched product, the arguments unchanged. -/
theorem run : θ_run defs (onTc (τ := τ) (main (F := Ideal))) ⟨m, fun _ => 0, ρ⟩ fun r => ∀ c : Dev nD,
      r.2.mem ((c : Thread nD τ).loc main_v0)
        = prod (argX m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.RefIsProd.lean ====
/-
  The reference is the batched product.

  The reference is one `dot_general` with batch axis 0 on both operands, contracting axis 2 of `x` against
  axis 1 of `w`.  Over the extended reals its entry at (b, s, r) is the sum over d of x (b, s, d) * w (b, d, r):
  the two operand indices it reads at contraction position d are (b, s, d) and (b, d, r).
-/
import proofs.«162398_j52132313039179_2_alg».proof.Proof.Gen.ReferenceIdeal.Read
import proofs.«162398_j52132313039179_2_alg».proof.Proof.Spec

noncomputable section

namespace Cert.ReferenceIdeal.RefValue

open Cert.ReferenceIdeal Cert.ReferenceIdeal.Read Idealize.ShloMosaic Idealize.ShloMosaic.ValueIdx Cert.BatchedProduct

/-- The left operand's index at result index `i` and contraction position `d` is (i₀, i₁, d). -/
theorem lidx_eq (i : S8x4096x64.Idx) (d : Fin 2048) :
    lidx_main_v0 i d = (ix3 (i 0) (i 1) d : S8x4096x2048.Idx) :=
  funext fun a => by match a with | ⟨0, _⟩ => rfl | ⟨1, _⟩ => rfl | ⟨2, _⟩ => rfl

/-- The right operand's index at result index `i` and contraction position `d` is (i₀, d, i₂). -/
theorem ridx_eq (i : S8x4096x64.Idx) (d : Fin 2048) :
    ridx_main_v0 i d = (ix3 (i 0) d (i 2) : S8x2048x64.Idx) :=
  funext fun a => by match a with | ⟨0, _⟩ => rfl | ⟨1, _⟩ => rfl | ⟨2, _⟩ => rfl

/-- The reference's result, over the extended reals, is the batched product of its two arguments. -/
theorem ref_eq_prod (x : (⟨S8x4096x2048, .f32⟩ : BufTy).Contents (Elt Ideal))
    (w : (⟨S8x2048x64, .f32⟩ : BufTy).Contents (Elt Ideal)) :
    val_main_v0 (F := Ideal) x w = prod x w := by
  funext i
  rw [val_main_v0_apply]
  show _ = entry x w (i 0) (i 1) (i 2)
  unfold entry
  refine Finset.sum_congr rfl fun d _ => ?_
  rw [lidx_eq, ridx_eq]

end Cert.ReferenceIdeal.RefValue

end
-- ==== Proof.lean ====
/-
  A batched matrix product, tiled over a grid, against one batched `dot_general`.

  The kernel computes out[b] = x[b] · w[b] for x of shape [8, 4096, 2048] and w of shape [8, 2048, 64], on a grid of
  8 batches × 4 row tiles of 1024 rows.  At each point it multiplies the point's 1024 × 2048 tile of x with a
  2048 × 64 slab it carries between points; the slab is refilled from w[b] at the first row tile of each batch and
  kept for the other three, so at every point of batch b it holds w[b].  Both factors are narrowed to a shorter
  float format before the product and the product is accumulated into zero.  The reference is a single
  `dot_general` with batch axis 0, contracting axis 2 of x against axis 1 of w.

  Over the extended reals a change of float format is the identity and both programs' sums are the exact sum
  over d < 2048 of x (b, s, d) * w (b, d, r): the kernel's, tile by tile (Result), and the reference's (RefIsProd),
  are the same function `BatchedProduct.prod` of the same arguments.  No algebraic law beyond reading both sums at
  an index is needed, so the finiteness of the inputs is not used.  The idealizing pass rewrote nothing, so the
  idealized kernel is the kernel's own text read over the extended reals.
-/
import proofs.«162398_j52132313039179_2_alg».proof.Defs
import proofs.«162398_j52132313039179_2_alg».proof.Proof.Gen.Kernel
import proofs.«162398_j52132313039179_2_alg».proof.Proof.Gen.Kernel.Frame
import proofs.«162398_j52132313039179_2_alg».proof.Proof.Gen.KernelIdeal
import proofs.«162398_j52132313039179_2_alg».proof.Proof.Gen.KernelIdeal.Frame
import proofs.«162398_j52132313039179_2_alg».proof.Proof.Gen.KernelIdeal.Value
import proofs.«162398_j52132313039179_2_alg».proof.Proof.Gen.ReferenceIdeal
import proofs.«162398_j52132313039179_2_alg».proof.Proof.Gen.ReferenceIdeal.Run
import proofs.«162398_j52132313039179_2_alg».proof.Proof.Gen.ReferenceIdeal.Read
import proofs.«162398_j52132313039179_2_alg».proof.Proof.Gen.Pre_finite_inputs
import proofs.«162398_j52132313039179_2_alg».proof.Proof.Result
import proofs.«162398_j52132313039179_2_alg».proof.Proof.RefIsProd
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- Over the extended reals, from memories agreeing on the arguments, the kernel's result array and the reference's
    both end at the batched product of the arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.ref_eq_prod, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
